-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x768 : Shape := ⟨3, ![32, 2048, 768]⟩
abbrev S32x512 : Shape := ⟨2, ![32, 512]⟩
abbrev S256x768 : Shape := ⟨2, ![256, 768]⟩
abbrev S256 : Shape := ⟨1, ![256]⟩
abbrev S256x512 : Shape := ⟨2, ![256, 512]⟩
abbrev S768x256 : Shape := ⟨2, ![768, 256]⟩
abbrev S768 : Shape := ⟨1, ![768]⟩
abbrev S256x256 : Shape := ⟨2, ![256, 256]⟩
abbrev S_ : Shape := ⟨0, ![]⟩

class Facts : Prop where
  bcast_S_S32x2048x768 : S_.BroadcastsInDim S32x2048x768 (![] : Fin 0 → Fin S32x2048x768.rank)
  reducesTo_S32x2048x768_S_d0_1_2 : S32x2048x768.ReducesTo [0, 1, 2] S_
  h_S_ : 0 < S_.numel
  bcast_S_S32x512 : S_.BroadcastsInDim S32x512 (![] : Fin 0 → Fin S32x512.rank)
  reducesTo_S32x512_S_d0_1 : S32x512.ReducesTo [0, 1] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_

variable [Facts]

def fn_part4 {F : FTy → Type} [FloatOps F] (main_arg14 : FVec F S768 .f32) (main_arg15 : FVec F S768 .f32) (main_v63 : IVec S_ 1) (main_v67 : IVec S_ 1) : IVec S_ 1 :=
  let main_v68 : IVec S_ 1 := andi main_v63 main_v67
  let main_v69 : FVec F S768 .f32 := Host.absf main_arg14
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S768 .f32 := Host.absf main_arg15
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  main_v78

def fn_part3 {F : FTy → Type} [FloatOps F] (main_arg11 : FVec F S256 .f32) (main_arg12 : FVec F S768x256 .f32) (main_arg13 : FVec F S768 .f32) (main_arg14 : FVec F S768 .f32) (main_arg15 : FVec F S768 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S768x256 .f32 := Host.absf main_arg12
  let main_cst_22 : FVec F S_ .f32 := constant S_ .f32 0x7F800000#32
  let main_v60 : FVec F S768x256 .f32 := broadcastInDim S768x256 ![] bcast_S_S768x256 main_cst_22
  let main_v61 : IVec S768x256 1 := cmpf .olt main_v59 main_v60
  let main_c_23 : IVec S_ 1 := constantI S_ 1 1#1
  let main_v62 : IVec S_ 1 := (fun x v => Host.reduce IntOp.andi x v reducesTo_S768x256_S_d0_1 h_S_) main_v61 main_c_23
  let main_v63 : IVec S_ 1 := andi main_v58 main_v62
  let main_v64 : FVec F S768 .f32 := Host.absf main_arg13
  let main_cst_24 : FVec F S_ .f32 := constant S_ .f32 0x7F800000#32
  let main_v65 : FVec F S768 .f32 := broadcastInDim S768 ![] bcast_S_S768 main_cst_24
  let main_v66 : IVec S768 1 := cmpf .olt main_v64 main_v65
  let main_c_25 : IVec S_ 1 := constantI S_ 1 1#1
  let main_v67 : IVec S_ 1 := (fun x v => Host.reduce IntOp.andi x v reducesTo_S768_S_d0 h_S_) main_v66 main_c_25
  fn_part4 (F := F) main_arg14 main_arg15 main_v63 main_v67

def fn_part2 {F : FTy → Type} [FloatOps F] (main_arg7 : FVec F S256 .f32) (main_arg8 : FVec F S768x256 .f32) (main_arg9 : FVec F S768 .f32) (main_arg10 : FVec F S256x256 .f32) (main_arg11 : FVec F S256 .f32) (main_arg12 : FVec F S768x256 .f32) (main_arg13 : FVec F S768 .f32) (main_arg14 : FVec F S768 .f32) (main_arg15 : FVec F S768 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_v48 main_v49 main_v50

def fn_part1 {F : FTy → Type} [FloatOps F] (main_arg4 : FVec F S256x512 .f32) (main_arg5 : FVec F S256 .f32) (main_arg6 : FVec F S256x512 .f32) (main_arg7 : FVec F S256 .f32) (main_arg8 : FVec F S768x256 .f32) (main_arg9 : FVec F S768 .f32) (main_arg10 : FVec F S256x256 .f32) (main_arg11 : FVec F S256 .f32) (main_arg12 : FVec F S768x256 .f32) (main_arg13 : FVec F S768 .f32) (main_arg14 : FVec F S768 .f32) (main_arg15 : FVec F S768 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S32x2048x768 .f32) (main_arg1 : FVec F S32x512 .f32) (main_arg2 : FVec F S256x768 .f32) (main_arg3 : FVec F S256 .f32) (main_arg4 : FVec F S256x512 .f32) (main_arg5 : FVec F S256 .f32) (main_arg6 : FVec F S256x512 .f32) (main_arg7 : FVec F S256 .f32) (main_arg8 : FVec F S768x256 .f32) (main_arg9 : FVec F S768 .f32) (main_arg10 : FVec F S256x256 .f32) (main_arg11 : FVec F S256 .f32) (main_arg12 : FVec F S768x256 .f32) (main_arg13 : FVec F S768 .f32) (main_arg14 : FVec F S768 .f32) (main_arg15 : FVec F S768 .f32) : IVec S_ 1 :=
  let main_v0 : FVec F S32x2048x768 .f32 := Host.absf main_arg0
  let main_cst : FVec F S_ .f32 := constant S_ .f32 0x7F800000#32
  let main_v1 : FVec F S32x2048x768 .f32 := broadcastInDim S32x2048x768 ![] bcast_S_S32x2048x768 main_cst
  let main_v2 : IVec S32x2048x768 1 := cmpf .olt main_v0 main_v1
  let main_c : IVec S_ 1 := constantI S_ 1 1#1
  let main_v3 : IVec S_ 1 := (fun x v => Host.reduce IntOp.andi x v reducesTo_S32x2048x768_S_d0_1_2 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S32x2048x768 : Shape := ⟨3, ![32, 2048, 768]⟩
abbrev S32x512 : Shape := ⟨2, ![32, 512]⟩
abbrev S256x768 : Shape := ⟨2, ![256, 768]⟩
abbrev S256 : Shape := ⟨1, ![256]⟩
abbrev S256x512 : Shape := ⟨2, ![256, 512]⟩
abbrev S768x256 : Shape := ⟨2, ![768, 256]⟩
abbrev S768 : Shape := ⟨1, ![768]⟩
abbrev S256x256 : Shape := ⟨2, ![256, 256]⟩
abbrev S512x256 : Shape := ⟨2, ![512, 256]⟩
abbrev S32x256 : Shape := ⟨2, ![32, 256]⟩
abbrev S1x256 : Shape := ⟨2, ![1, 256]⟩
abbrev S32x768 : Shape := ⟨2, ![32, 768]⟩
abbrev S1x768 : Shape := ⟨2, ![1, 768]⟩
abbrev S32x1x768 : Shape := ⟨3, ![32, 1, 768]⟩
abbrev S1x512x768 : Shape := ⟨3, ![1, 512, 768]⟩
abbrev S1x1x768 : Shape := ⟨3, ![1, 1, 768]⟩
abbrev S512x768 : Shape := ⟨2, ![512, 768]⟩
abbrev S512 : Shape := ⟨1, ![512]⟩
abbrev S512x1 : Shape := ⟨2, ![512, 1]⟩

abbrev nBuf : Space → Nat
  | .hbm => 45
  | .vmem => 8
  | .smem => 0
  | _ => 0

abbrev bufTy : (tb : Table) → Fin (tcTables nBuf tb) → BufTy
  | .hbm, ⟨0, _⟩ => ⟨S32x2048x768, .f32⟩
  | .hbm, ⟨1, _⟩ => ⟨S32x512, .f32⟩
  | .hbm, ⟨2, _⟩ => ⟨S256x768, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S768x256, .f32⟩
  | .hbm, ⟨9, _⟩ => ⟨S768, .f32⟩
  | .hbm, ⟨10, _⟩ => ⟨S256x256, .f32⟩
  | .hbm, ⟨11, _⟩ => ⟨S256, .f32⟩
  | .hbm, ⟨12, _⟩ => ⟨S768x256, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S512x256, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S512x256, .f32⟩
  | .hbm, ⟨22, _⟩ => ⟨S32x256, .f32⟩
  | .hbm, ⟨23, _⟩ => ⟨S1x256, .f32⟩
  | .hbm, ⟨24, _⟩ => ⟨S32x256, .f32⟩
  | .hbm, ⟨25, _⟩ => ⟨S32x256, .f32⟩
  | .hbm, ⟨26, _⟩ => ⟨S256x256, .f32⟩
  | .hbm, ⟨27, _⟩ => ⟨S256, .f32⟩
  | .hbm, ⟨28, _⟩ => ⟨S256x256, .f32⟩
  | .hbm, ⟨29, _⟩ => ⟨S32x256, .f32⟩
  | .hbm, ⟨30, _⟩ => ⟨S1x256, .f32⟩
  | .hbm, ⟨31, _⟩ => ⟨S32x256, .f32⟩
  | .hbm, ⟨32, _⟩ => ⟨S32x256, .f32⟩
  | .hbm, ⟨33, _⟩ => ⟨S256x256, .f32⟩
  | .hbm, ⟨34, _⟩ => ⟨S32x256, .f32⟩
  | .hbm, ⟨35, _⟩ => ⟨S1x256, .f32⟩
  | .hbm, ⟨36, _⟩ => ⟨S32x256, .f32⟩
  | .hbm, ⟨37, _⟩ => ⟨S32x256, .f32⟩
  | .hbm, ⟨38, _⟩ => ⟨S256x768, .f32⟩
  | .hbm, ⟨39, _⟩ => ⟨S32x768, .f32⟩
  | .hbm, ⟨40, _⟩ => ⟨S1x768, .f32⟩
  | .hbm, ⟨41, _⟩ => ⟨S32x768, .f32⟩
  | .hbm, ⟨42, _⟩ => ⟨S32x768, .f32⟩
  | .hbm, ⟨43, _⟩ => ⟨S32x1x768, .f32⟩
  | .hbm, ⟨44, _⟩ => ⟨S32x2048x768, .f32⟩
  | .local _ .vmem, ⟨0, _⟩ => ⟨S1x512x768, .f32⟩
  | .local _ .vmem, ⟨1, _⟩ => ⟨S1x512x768, .f32⟩
  | .local _ .vmem, ⟨2, _⟩ => ⟨S1x1x768, .f32⟩
  | .local _ .vmem, ⟨3, _⟩ => ⟨S1x1x768, .f32⟩
  | .local _ .vmem, ⟨4, _⟩ => ⟨S768, .f32⟩
  | .local _ .vmem, ⟨5, _⟩ => ⟨S768, .f32⟩
  | .local _ .vmem, ⟨6, _⟩ => ⟨S1x512x768, .f32⟩
  | .local _ .vmem, ⟨7, _⟩ => ⟨S1x512x768, .f32⟩
  | _, _ => ⟨S32x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S256x512_S512x256_1_0 : S256x512.Transposes [1, 0] S512x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  slices_S768x256_S256x256_512_0 : S768x256.Slices ![512, 0] S256x256
  slices_S768_S256_512 : S768.Slices ![512] S256
  transposes_S256x256_S256x256_1_0 : S256x256.Transposes [1, 0] S256x256
  transposes_S768x256_S256x768_1_0 : S768x256.Transposes [1, 0] S256x768
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  shapeCasts_S32x768_S32x1x768 : S32x768.ShapeCasts S32x1x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  broadcasts_S1x768_S512x768 : S1x768.Broadcasts S512x768
  reduces_S512x768_S512 : S512x768.Reduces [1] S512
  shapeCasts_S512_S512x1 : S512.ShapeCasts S512x1
  broadcasts_S512x1_S512x768 : S512x1.Broadcasts S512x768
  inb_S768_S768_0 : ∀ a, (![0] : Fin 1 → Nat) a + S768.size a ≤ S768.size a
  h_S768 : 0 < S768.numel
  shapeCasts_S768_S1x768 : S768.ShapeCasts S1x768
  shapeCasts_S512x768_S1x512x768 : S512x768.ShapeCasts S1x512x768
  dot_S32x512_S512x256_S32x256_1_0_0_1_n_n_wf : DotDims.WF S32x512 S512x256 S32x256 [1] [0] [0] [1] [] []
  dot_S32x256_S256x256_S32x256_1_0_0_1_n_n_wf : DotDims.WF S32x256 S256x256 S32x256 [1] [0] [0] [1] [] []
  dot_S32x256_S256x768_S32x768_1_0_0_1_n_n_wf : DotDims.WF S32x256 S256x768 S32x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S32x2048x768.size a
  hwx0_0 : ∀ i : grid0.Coords, EltTy.bits .f32 = 32 ∨ (Rect.block (s := S32x2048x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x768.size a ≤ S32x1x768.size a
  hwx0_1 : ∀ i : grid0.Coords, EltTy.bits .f32 = 32 ∨ (Rect.block (s := S32x1x768) S1x1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S32x2048x768.size a
  hwx0_4 : ∀ i : grid0.Coords, EltTy.bits .f32 = 32 ∨ (Rect.block (s := S32x2048x768) S1x512x768.size (cc0_transform_4 i) (hinb0_4 i)).WholeWords (EltTy.packing .f32)

variable [Facts₀]

def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x1x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg15) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x768 : Shape := ⟨3, ![32, 2048, 768]⟩
abbrev S32x512 : Shape := ⟨2, ![32, 512]⟩
abbrev S256x768 : Shape := ⟨2, ![256, 768]⟩
abbrev S256 : Shape := ⟨1, ![256]⟩
abbrev S256x512 : Shape := ⟨2, ![256, 512]⟩
abbrev S768x256 : Shape := ⟨2, ![768, 256]⟩
abbrev S768 : Shape := ⟨1, ![768]⟩
abbrev S256x256 : Shape := ⟨2, ![256, 256]⟩
abbrev S512x256 : Shape := ⟨2, ![512, 256]⟩
abbrev S32x256 : Shape := ⟨2, ![32, 256]⟩
abbrev S1x256 : Shape := ⟨2, ![1, 256]⟩
abbrev S32x768 : Shape := ⟨2, ![32, 768]⟩
abbrev S1x768 : Shape := ⟨2, ![1, 768]⟩
abbrev S32x1x768 : Shape := ⟨3, ![32, 1, 768]⟩
abbrev S_ : Shape := ⟨0, ![]⟩
abbrev S32x2048 : Shape := ⟨2, ![32, 2048]⟩
abbrev S32x2048x1 : Shape := ⟨3, ![32, 2048, 1]⟩
abbrev S1x1x768 : Shape := ⟨3, ![1, 1, 768]⟩

abbrev nBuf : Space → Nat
  | .hbm => 75
  | .vmem => 0
  | .smem => 0
  | _ => 0

abbrev bufTy : (tb : Table) → Fin (tcTables nBuf tb) → BufTy
  | .hbm, ⟨0, _⟩ => ⟨S32x2048x768, .f32⟩
  | .hbm, ⟨1, _⟩ => ⟨S32x512, .f32⟩
  | .hbm, ⟨2, _⟩ => ⟨S256x768, .f32⟩
  | .hbm, ⟨3, _⟩ => ⟨S256, .f32⟩
  | .hbm, ⟨4, _⟩ => ⟨S256x512, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S768x256, .f32⟩
  | .hbm, ⟨9, _⟩ => ⟨S768, .f32⟩
  | .hbm, ⟨10, _⟩ => ⟨S256x256, .f32⟩
  | .hbm, ⟨11, _⟩ => ⟨S256, .f32⟩
  | .hbm, ⟨12, _⟩ => ⟨S768x256, .f32⟩
  | .hbm, ⟨13, _⟩ => ⟨S768, .f32⟩
  | .hbm, ⟨14, _⟩ => ⟨S768, .f32⟩
  | .hbm, ⟨15, _⟩ => ⟨S768, .f32⟩
  | .hbm, ⟨16, _⟩ => ⟨S512x256, .f32⟩
  | .hbm, ⟨17, _⟩ => ⟨S32x256, .f32⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S512x256, .f32⟩
  | .hbm, ⟨22, _⟩ => ⟨S32x256, .f32⟩
  | .hbm, ⟨23, _⟩ => ⟨S1x256, .f32⟩
  | .hbm, ⟨24, _⟩ => ⟨S32x256, .f32⟩
  | .hbm, ⟨25, _⟩ => ⟨S32x256, .f32⟩
  | .hbm, ⟨26, _⟩ => ⟨S256x256, .f32⟩
  | .hbm, ⟨27, _⟩ => ⟨S256, .f32⟩
  | .hbm, ⟨28, _⟩ => ⟨S256x256, .f32⟩
  | .hbm, ⟨29, _⟩ => ⟨S32x256, .f32⟩
  | .hbm, ⟨30, _⟩ => ⟨S1x256, .f32⟩
  | .hbm, ⟨31, _⟩ => ⟨S32x256, .f32⟩
  | .hbm, ⟨32, _⟩ => ⟨S32x256, .f32⟩
  | .hbm, ⟨33, _⟩ => ⟨S256x256, .f32⟩
  | .hbm, ⟨34, _⟩ => ⟨S32x256, .f32⟩
  | .hbm, ⟨35, _⟩ => ⟨S1x256, .f32⟩
  | .hbm, ⟨36, _⟩ => ⟨S32x256, .f32⟩
  | .hbm, ⟨37, _⟩ => ⟨S32x256, .f32⟩
  | .hbm, ⟨38, _⟩ => ⟨S256x768, .f32⟩
  | .hbm, ⟨39, _⟩ => ⟨S32x768, .f32⟩
  | .hbm, ⟨40, _⟩ => ⟨S1x768, .f32⟩
  | .hbm, ⟨41, _⟩ => ⟨S32x768, .f32⟩
  | .hbm, ⟨42, _⟩ => ⟨S32x768, .f32⟩
  | .hbm, ⟨43, _⟩ => ⟨S32x1x768, .f32⟩
  | .hbm, ⟨44, _⟩ => ⟨S32x2048x768, .f32⟩
  | .hbm, ⟨45, _⟩ => ⟨S32x2048x768, .f32⟩
  | .hbm, ⟨46, _⟩ => ⟨S_, .f32⟩
  | .hbm, ⟨47, _⟩ => ⟨S32x2048, .f32⟩
  | .hbm, ⟨48, _⟩ => ⟨S32x2048x1, .f32⟩
  | .hbm, ⟨49, _⟩ => ⟨S_, .f32⟩
  | .hbm, ⟨50, _⟩ => ⟨S32x2048x1, .f32⟩
  | .hbm, ⟨51, _⟩ => ⟨S32x2048x1, .f32⟩
  | .hbm, ⟨52, _⟩ => ⟨S32x2048x768, .f32⟩
  | .hbm, ⟨53, _⟩ => ⟨S32x2048x768, .f32⟩
  | .hbm, ⟨54, _⟩ => ⟨S32x2048x768, .f32⟩
  | .hbm, ⟨55, _⟩ => ⟨S_, .f32⟩
  | .hbm, ⟨56, _⟩ => ⟨S32x2048, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x768, .f32⟩
  | .hbm, ⟨62, _⟩ => ⟨S32x2048x768, .f32⟩
  | .hbm, ⟨63, _⟩ => ⟨S_, .f32⟩
  | .hbm, ⟨64, _⟩ => ⟨S32x2048x1, .f32⟩
  | .hbm, ⟨65, _⟩ => ⟨S32x2048x1, .f32⟩
  | .hbm, ⟨66, _⟩ => ⟨S32x2048x1, .f32⟩
  | .hbm, ⟨67, _⟩ => ⟨S32x2048x768, .f32⟩
  | .hbm, ⟨68, _⟩ => ⟨S32x2048x768, .f32⟩
  | .hbm, ⟨69, _⟩ => ⟨S1x1x768, .f32⟩
  | .hbm, ⟨70, _⟩ => ⟨S32x2048x768, .f32⟩
  | .hbm, ⟨71, _⟩ => ⟨S32x2048x768, .f32⟩
  | .hbm, ⟨72, _⟩ => ⟨S1x1x768, .f32⟩
  | .hbm, ⟨73, _⟩ => ⟨S32x2048x768, .f32⟩
  | .hbm, ⟨74, _⟩ => ⟨S32x2048x768, .f32⟩
  | _, _ => ⟨S32x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_cst_0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_cst_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_3 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  transposes_S256x512_S512x256_1_0 : S256x512.Transposes [1, 0] S512x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  slices_S768x256_S256x256_512_0 : S768x256.Slices ![512, 0] S256x256
  slices_S768_S256_512 : S768.Slices ![512] S256
  transposes_S256x256_S256x256_1_0 : S256x256.Transposes [1, 0] S256x256
  transposes_S768x256_S256x768_1_0 : S768x256.Transposes [1, 0] S256x768
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  bcast_S32x768_S32x1x768_0_2 : S32x768.BroadcastsInDim S32x1x768 (![0, 2] : Fin 2 → Fin S32x1x768.rank)
  bcast_S32x1x768_S32x2048x768_0_1_2 : S32x1x768.BroadcastsInDim S32x2048x768 (![0, 1, 2] : Fin 3 → Fin S32x2048x768.rank)
  reducesTo_S32x2048x768_S32x2048_d2 : S32x2048x768.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x768_0_1_2 : S32x2048x1.BroadcastsInDim S32x2048x768 (![0, 1, 2] : Fin 3 → Fin S32x2048x768.rank)
  bcast_S768_S1x1x768_2 : S768.BroadcastsInDim S1x1x768 (![2] : Fin 1 → Fin S1x1x768.rank)
  bcast_S1x1x768_S32x2048x768_0_1_2 : S1x1x768.BroadcastsInDim S32x2048x768 (![0, 1, 2] : Fin 3 → Fin S32x2048x768.rank)
  dot_S32x512_S512x256_S32x256_1_0_0_1_n_n_wf : DotDims.WF S32x512 S512x256 S32x256 [1] [0] [0] [1] [] []
  dot_S32x256_S256x256_S32x256_1_0_0_1_n_n_wf : DotDims.WF S32x256 S256x256 S32x256 [1] [0] [0] [1] [] []
  dot_S32x256_S256x768_S32x768_1_0_0_1_n_n_wf : DotDims.WF S32x256 S256x768 S32x768 [1] [0] [0] [1] [] []

variable [Facts₀]

def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf

class Facts : Prop extends Facts₀ where

variable [Facts]
-- ==== Proof.LayerNormSpec.lean ====
/-
  Layer normalisation of the rows of `a + p`, on the extended reals.

  The array `a` has shape [32, 2048, 768] and `p` has shape [32, 768]; row (b, s) of the sum is
  `x k = a (b, s, k) + p (b, k)`, k < 768.  With the two programs' shared constants — the divisor 768 and
  the small shift ε, both kept as the binary words the programs print — a row's mean is `(∑ k, x k) / 768`,
  its variance `(∑ k, (x k - mean)²) / 768`, and entry k of the normalised row is
  `(x k - mean) · rsqrt (variance + ε) · γ k + β k`.

  Nothing here depends on either program: both are later shown to compute `LayerNorm.out`.
-/
import Idealize.ShloMosaic.PureOps.Ideal
import Idealize.ShloMosaic.Lib.ValueIdx

noncomputable section

open Idealize.ShloMosaic Idealize.ShloMosaic.ValueIdx

namespace Cert.LayerNorm

/-- The row length 768 as the programs' word. -/
abbrev width : EReal := Ideal.ofBits .f32 0x44400000#32

/-- The shift ε added to the variance, as the programs' word. -/
abbrev eps : EReal := Ideal.ofBits .f32 0x3727C5AC#32

/-- The mean of a row: its sum divided by the row length. -/
def rowMean (x : Fin 768 → EReal) : EReal := Ideal.div (∑ k : Fin 768, x k) width

/-- The variance of a row: the mean of the squared deviations from the row's mean. -/
def rowVar (x : Fin 768 → EReal) : EReal :=
  Ideal.div (∑ k : Fin 768, (x k - rowMean x) * (x k - rowMean x)) width

/-- Entry `k` of the normalised row, scaled by `g` and shifted by `b`. -/
def row (x g b : Fin 768 → EReal) (k : Fin 768) : EReal :=
  (x k - rowMean x) * Ideal.rsqrt (rowVar x + eps) * g k + b k

/-- The whole result: entry (b, s, k) is entry k of the normalised row (b, s) of `a + p`. -/
def out (a : (⟨3, ![32, 2048, 768]⟩ : Shape).Idx → EReal) (p : (⟨2, ![32, 768]⟩ : Shape).Idx → EReal)
    (g b : (⟨1, ![768]⟩ : Shape).Idx → EReal) : (⟨3, ![32, 2048, 768]⟩ : Shape).Idx → EReal :=
  fun i => row (fun k => a (ix3 (i 0) (i 1) k) + p (ix2 (i 0) k)) (fun k => g (ix1 k)) (fun k => b (ix1 k)) (i 2)

/-- `row` depends on the row, the scale and the shift only through their entries. -/
theorem row_congr (x x' g g' b b' : Fin 768 → EReal) (hx : ∀ k, x k = x' k) (hg : ∀ k, g k = g' k)
    (hb : ∀ k, b k = b' k) (k : Fin 768) : row x g b k = row x' g' b' k := by
  rw [funext hx, funext hg, funext hb]

/-- `out` at an index whose coordinates are `bb`, `s`, `k`. -/
theorem out_at (a : (⟨3, ![32, 2048, 768]⟩ : Shape).Idx → EReal) (p : (⟨2, ![32, 768]⟩ : Shape).Idx → EReal)
    (g b : (⟨1, ![768]⟩ : Shape).Idx → EReal) (i : (⟨3, ![32, 2048, 768]⟩ : Shape).Idx)
    (bb : Fin 32) (s : Fin 2048) (k : Fin 768)
    (h0 : (i 0).val = bb.val) (h1 : (i 1).val = s.val) (h2 : (i 2).val = k.val) :
    out a p g b i
      = row (fun k' => a (ix3 bb s k') + p (ix2 bb k')) (fun k' => g (ix1 k')) (fun k' => b (ix1 k')) k := by
  have hi : i = ix3 bb s k :=
    funext fun d => Fin.ext (by match d with | ⟨0, _⟩ => exact h0 | ⟨1, _⟩ => exact h1 | ⟨2, _⟩ => exact h2)
  subst hi
  rfl

end Cert.LayerNorm

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.BlockValue.lean ====
/-
  One block of the kernel is the row-wise layer normalisation of its loads.

  At a grid point the body loads a block `P0` of the big array (shape [1, 512, 768]), the matching row `P1` of the
  projection (shape [1, 1, 768]) and the vectors `P2`, `P3` (γ and β, shape [768]).  Row `r` of the block of
  `a + p` is `k ↦ P0 (0, r, k) + P1 (0, 0, k)`.  The body sums each row over its 768 lanes starting from the zero
  word (so the lane sum is the plain sum), divides by 768 for the mean, subtracts it, sums the squares for the variance,
  adds ε, takes the reciprocal square root and scales and shifts: entry (0, r, k) of what it stores is
  `LayerNorm.row` of row `r` at `k`.  The re-layings in between ([1,512,768] ↔ [512,768], a kept column [512] →
  [512,1] → [512,768], a row [768] → [1,768] → [512,768]) only move indices.
-/
import proofs.«134053_j68350109549162_1_alg».proof.Proof.Gen.KernelIdeal.Value
import proofs.«134053_j68350109549162_1_alg».proof.Proof.LayerNormSpec
import proofs.«134053_j68350109549162_1_alg».proof.Proof.LibColumn
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.KernelBridge

open Cert.KernelIdeal Cert.KernelIdeal.Gen Cert.KernelIdeal.Value Cert.LibColumn

variable (P0 : Vec Ideal S1x512x768 .f32) (P1 : Vec Ideal S1x1x768 .f32) (P2 P3 : Vec Ideal S768 .f32)

/-- Row `r` of the block of `a + p`. -/
def blockRow (r : Fin 512) (k : Fin 768) : EReal :=
  P0 (ix3 (0 : Fin 1) r k) + P1 (ix3 (0 : Fin 1) (0 : Fin 1) k)

/-- The block of `a + p` as the body forms it: the loaded block as a matrix plus the loaded row spread over it. -/
abbrev summed : FVec Ideal S512x768 .f32 :=
  addf (shapeCast S512x768 P0 shapeCasts_S1x512x768_S512x768)
    (broadcastTo S512x768 (shapeCast S1x768 P1 shapeCasts_S1x1x768_S1x768) broadcasts_S1x768_S512x768)

theorem summed_apply (r : Fin 512) (k : Fin 768) : summed P0 P1 (ix2 r k) = blockRow P0 P1 r k := by
  have e0 := shapeCast_1ab_ab_apply (a := 512) (b := 768) P0 shapeCasts_S1x512x768_S512x768 r k
  have e1 := broadcastTo_1b_ab_apply (a := 512) (b := 768) (shapeCast S1x768 P1 shapeCasts_S1x1x768_S1x768)
    broadcasts_S1x768_S512x768 r k
  have e2 := shapeCast_1ab_ab_apply (a := 1) (b := 768) P1 shapeCasts_S1x1x768_S1x768 (0 : Fin 1) k
  exact congrArg₂ (· + ·) e0 (e1.trans e2)

/-- The lane sum of row `r`, started from the zero word, is the plain sum of the row. -/
theorem sum_summed (r : Fin 512) :
    multiReduction .add [1] S512 (summed P0 P1) 0x00000000#32 reduces_S512x768_S512 (.inl rfl) rfl (ix1 r)
      = ∑ k : Fin 768, blockRow P0 P1 r k := by
  refine (Ideal.multiReduction_add_single (summed P0 P1) 0x00000000#32 reduces_S512x768_S512 (.inl rfl) rfl (ix1 r)).trans ?_
  refine Finset.sum_congr rfl fun (k : Fin 768) _ => ?_
  refine (congrArg (summed P0 P1) (?_ : reduces_S512x768_S512.lift (ix1 r) k = ix2 r k)).trans (summed_apply P0 P1 r k)
  exact funext fun a => Fin.ext (by match a with | ⟨0, _⟩ => rfl | ⟨1, _⟩ => rfl)

/-- The column of row means as the body forms it: the lane sums re-laid as a column, each divided by 768. -/
abbrev meanCol : FVec Ideal S512x1 .f32 :=
  divf (shapeCast S512x1 (multiReduction .add [1] S512 (summed P0 P1) 0x00000000#32 reduces_S512x768_S512 (.inl rfl) rfl)
      shapeCasts_S512_S512x1) (broadcast S512x1 (Scalar.ofBits .f32 0x44400000#32))

/-- The deviations from the row means as the body forms them. -/
abbrev centred : FVec Ideal S512x768 .f32 :=
  subf (summed P0 P1) (broadcastTo S512x768 (meanCol P0 P1) broadcasts_S512x1_S512x768)

/-- Entry `r` of the mean column is the mean of row `r`. -/
theorem meanCol_apply (r : Fin 512) : meanCol P0 P1 (ix2 r (0 : Fin 1)) = LayerNorm.rowMean (blockRow P0 P1 r) := by
  have e0 := shapeCast_a_a1_apply (a := 512)
    (multiReduction .add [1] S512 (summed P0 P1) 0x00000000#32 reduces_S512x768_S512 (.inl rfl) rfl)
    shapeCasts_S512_S512x1 r (0 : Fin 1)
  show Ideal.div (shapeCast S512x1 _ shapeCasts_S512_S512x1 (ix2 r (0 : Fin 1))) (Ideal.ofBits .f32 0x44400000#32) = _
  rw [e0, sum_summed]
  rfl

/-- The deviation at (r, k) is the row's entry less the row's mean. -/
theorem centred_apply (r : Fin 512) (k : Fin 768) :
    centred P0 P1 (ix2 r k) = blockRow P0 P1 r k - LayerNorm.rowMean (blockRow P0 P1 r) := by
  have e0 := broadcastTo_a1_ab_apply (a := 512) (b := 768) (meanCol P0 P1) broadcasts_S512x1_S512x768 r k
  show summed P0 P1 (ix2 r k) - broadcastTo S512x768 (meanCol P0 P1) broadcasts_S512x1_S512x768 (ix2 r k) = _
  rw [e0, summed_apply, meanCol_apply]

/-- The lane sum of the squared deviations of row `r` is their plain sum. -/
theorem sum_sq (r : Fin 512) :
    multiReduction .add [1] S512 (mulf (centred P0 P1) (centred P0 P1)) 0x00000000#32 reduces_S512x768_S512 (.inl rfl) rfl (ix1 r)
      = ∑ k : Fin 768, (blockRow P0 P1 r k - LayerNorm.rowMean (blockRow P0 P1 r))
          * (blockRow P0 P1 r k - LayerNorm.rowMean (blockRow P0 P1 r)) := by
  refine (Ideal.multiReduction_add_single (mulf (centred P0 P1) (centred P0 P1)) 0x00000000#32 reduces_S512x768_S512
    (.inl rfl) rfl (ix1 r)).trans ?_
  refine Finset.sum_congr rfl fun (k : Fin 768) _ => ?_
  have hk : reduces_S512x768_S512.lift (ix1 r) k = ix2 r k :=
    funext fun a => Fin.ext (by match a with | ⟨0, _⟩ => rfl | ⟨1, _⟩ => rfl)
  have hc : centred P0 P1 (reduces_S512x768_S512.lift (ix1 r) k)
      = blockRow P0 P1 r k - LayerNorm.rowMean (blockRow P0 P1 r) :=
    (congrArg (centred P0 P1) hk).trans (centred_apply P0 P1 r k)
  exact congrArg₂ (· * ·) hc hc

/-- WHAT THE BODY STORES, at entry (u, r, k) of the block: the normalised row `r` of `a + p` at `k`, scaled by the loaded
    γ and shifted by the loaded β. -/
theorem block_entry (u : Fin 1) (r : Fin 512) (k : Fin 768) :
    E4 P0 P1 P2 P3 (ix3 u r k)
      = LayerNorm.row (blockRow P0 P1 r) (fun k => P2 (ix1 k)) (fun k => P3 (ix1 k)) k := by
  have hu : u = 0 := Fin.ext (by omega)
  subst hu
  have h0 : ix4_0 (ix3 (0 : Fin 1) r k) = ix3 (0 : Fin 1) r k :=
    funext fun a => Fin.ext (by match a with | ⟨0, _⟩ => rfl | ⟨1, _⟩ => rfl | ⟨2, _⟩ => rfl)
  have h1 : ix4_1 (ix3 (0 : Fin 1) r k) = ix3 (0 : Fin 1) (0 : Fin 1) k :=
    funext fun a => Fin.ext (by match a with | ⟨0, _⟩ => rfl | ⟨1, _⟩ => rfl | ⟨2, _⟩ => rfl)
  have h2 : ix4_2 (ix3 (0 : Fin 1) r k) = ix1 r := funext fun a => Fin.ext (by match a with | ⟨0, _⟩ => rfl)
  have h3 : ix4_3 (ix3 (0 : Fin 1) r k) = ix1 r := funext fun a => Fin.ext (by match a with | ⟨0, _⟩ => rfl)
  have h4 : ix4_4 (ix3 (0 : Fin 1) r k) = ix1 k := funext fun a => Fin.ext (by match a with | ⟨0, _⟩ => rfl)
  have h5 : ix4_5 (ix3 (0 : Fin 1) r k) = ix1 k := funext fun a => Fin.ext (by match a with | ⟨0, _⟩ => rfl)
  show (P0 (ix4_0 (ix3 (0 : Fin 1) r k)) + P1 (ix4_1 (ix3 (0 : Fin 1) r k))
        - Ideal.div (multiReduction .add [1] S512 (summed P0 P1) 0x00000000#32 reduces_S512x768_S512 (.inl rfl) rfl
            (ix4_2 (ix3 (0 : Fin 1) r k))) (Ideal.ofBits .f32 0x44400000#32))
      * Ideal.rsqrt (Ideal.div (multiReduction .add [1] S512 (mulf (centred P0 P1) (centred P0 P1)) 0x00000000#32
            reduces_S512x768_S512 (.inl rfl) rfl (ix4_3 (ix3 (0 : Fin 1) r k))) (Ideal.ofBits .f32 0x44400000#32)
          + Ideal.ofBits .f32 0x3727C5AC#32)
      * P2 (ix4_4 (ix3 (0 : Fin 1) r k)) + P3 (ix4_5 (ix3 (0 : Fin 1) r k)) = _
  rw [h0, h1, h2, h3, h4, h5, sum_summed, sum_sq]
  rfl

end Cert.KernelBridge

end
-- ==== Proof.HostProjection.lean ====
/-
  The projection both programs add to the big array.

  Before its one region the kernel's program computes, from the vision features and six weight arrays, the
  [32, 768] projection `p` — four affine maps in a row: (x₁·W₆ᵀ + b₇), then the last 256 rows of the in-projection
  (a slice of x₈, x₉), then x₁₀, x₁₁, then x₁₂, x₁₃ — and re-lays it as [32, 1, 768], the array its second window
  stages.  The reference's first operations are the same operations on the same arguments, and its stage that writes
  `p` is taken here as the name of `p` for both programs.  The chain is never read at an index: unfolding the stage's
  definitions, the kernel's window array is literally that term re-laid.
-/
import proofs.«134053_j68350109549162_1_alg».proof.Proof.Gen.KernelIdeal.Value
import proofs.«134053_j68350109549162_1_alg».proof.Proof.Gen.ReferenceIdeal.Read
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelBridge

open Cert.KernelIdeal Cert.KernelIdeal.Gen

variable (m : (ℓ : Loc nD τ sig) → Buf (Elt Ideal) ℓ)

/-- The projection `p` of the kernel's launch memory: the reference's projection stage at the kernel's arguments. -/
abbrev projOf (c : Dev nD) : (⟨2, ![32, 768]⟩ : Shape).Idx → EReal :=
  Cert.ReferenceIdeal.Read.val_main_v26 (F := Ideal)
    (m ((c : Thread nD τ).loc main_arg1)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

set_option maxRecDepth 8192 in
set_option maxHeartbeats 2000000 in
/-- The array the second window stages, as the region finds it, is the projection re-laid as [32, 1, 768]. -/
theorem V_projection (c : Dev nD) :
    (V m c main_v27 : S32x1x768.Idx → EReal) = shapeCast S32x1x768 (projOf m c) shapeCasts_S32x768_S32x1x768 := by
  dsimp only [Gen.V, Gen.hostOps0]
  after_results_simp
  unfold projOf
  unfold Cert.ReferenceIdeal.Read.val_main_v26
    Cert.ReferenceIdeal.Read.val_main_v25
    Cert.ReferenceIdeal.Read.val_main_v24
    Cert.ReferenceIdeal.Read.val_main_v23
    Cert.ReferenceIdeal.Read.val_main_v22
    Cert.ReferenceIdeal.Read.val_main_v21
    Cert.ReferenceIdeal.Read.val_main_v20
    Cert.ReferenceIdeal.Read.val_main_v19
    Cert.ReferenceIdeal.Read.val_main_v18
    Cert.ReferenceIdeal.Read.val_main_v17
    Cert.ReferenceIdeal.Read.val_main_v16
    Cert.ReferenceIdeal.Read.val_main_v15
    Cert.ReferenceIdeal.Read.val_main_v14
    Cert.ReferenceIdeal.Read.val_main_v13
    Cert.ReferenceIdeal.Read.val_main_v12
    Cert.ReferenceIdeal.Read.val_main_v11
    Cert.ReferenceIdeal.Read.val_main_v10
    Cert.ReferenceIdeal.Read.val_main_v9
    Cert.ReferenceIdeal.Read.val_main_v8
    Cert.ReferenceIdeal.Read.val_main_v7
    Cert.ReferenceIdeal.Read.val_main_v6
    Cert.ReferenceIdeal.Read.val_main_v5
  rfl

end Cert.KernelBridge

end
-- ==== Proof.KernelValue.lean ====
/-
  The kernel's result array is `LayerNorm.out`.

  The grid has 32 × 4 points; point (b, q) owns rows 512·q … 512·q + 511 of batch b of the result, reads the same rows
  of the big array, row b of the projection (re-laid as [32, 1, 768]) and all of γ and β.  So what the point writes
  back (the normalised rows of its block, by the block module) is the restriction of `LayerNorm.out` to its block:
  each loaded entry is the array entry at block index × block size + the coordinate inside the block.  The 128 blocks
  tile the array (row s of batch b lies in the block of point (b, s / 512)), every point writes back, hence the array
  after the run is `LayerNorm.out` everywhere.
-/
import proofs.«134053_j68350109549162_1_alg».proof.Proof.Gen.KernelIdeal.Value
import proofs.«134053_j68350109549162_1_alg».proof.Proof.BlockValue
import proofs.«134053_j68350109549162_1_alg».proof.Proof.HostProjection
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelBridge

open Cert.KernelIdeal Cert.KernelIdeal.Gen Cert.KernelIdeal.Value

variable (m : (ℓ : Loc nD τ sig) → Buf (Elt Ideal) ℓ) (ρ : Dev nD → PrngReg)

theorem zero3 : (![0, 0, 0] : Fin 3 → Nat) = fun _ => 0 := funext fun a => by fin_cases a <;> rfl
theorem zero1 : (![0] : Fin 1 → Nat) = fun _ => 0 := funext fun a => by fin_cases a <;> rfl

/-- What the body leaves in the output buffer at an entry whose row is `r` and lane `k`: the normalised row `r` of
    the loaded blocks at `k`. -/
theorem out_entry (x0 : Vec Ideal S1x512x768 .f32) (x1 : Vec Ideal S1x1x768 .f32) (x2 x3 : Vec Ideal S768 .f32)
    (y : S1x512x768.Idx) (r : Fin 512) (k : Fin 768) (h1 : (y 1).val = r.val) (h2 : (y 2).val = k.val) :
    out0_4 x0 x1 x2 x3 y = LayerNorm.row (blockRow x0 x1 r) (fun k' => x2 (ix1 k')) (fun k' => x3 (ix1 k')) k := by
  have hy : y = ix3 (0 : Fin 1) r k :=
    funext fun a => Fin.ext (by
      match a with
      | ⟨0, _⟩ => have h : (y 0).val < 1 := (y 0).isLt; show (y 0).val = 0; omega
      | ⟨1, _⟩ => exact h1
      | ⟨2, _⟩ => exact h2)
  subst hy
  unfold out0_4
  simp only [View.ld_unit_zero (S := S1x512x768) zero3, View.ld_unit_zero (S := S1x1x768) zero3,
    View.ld_unit_zero (S := S768) zero1]
  exact (canon4_eq x0 x1 x2 x3 _).trans (block_entry x0 x1 x2 x3 0 r k)

/-- The result: `LayerNorm.out` of the big array, the projection, γ and β as launched. -/
abbrev result (c : Dev nD) : S32x2048x768.Idx → EReal :=
  LayerNorm.out (m ((c : Thread nD τ).loc main_arg0)) (projOf m c) (m ((c : Thread nD τ).loc main_arg14))
    (m ((c : Thread nD τ).loc main_arg15))

/-- The printed index maps, decided over the 128 points: the big array's window moves with the output's, the
    projection's follows the batch coordinate, γ's and β's stay put, and the output's block indices are in range. -/
theorem idx_facts : ∀ t : Fin cfg0.N,
    win0_0.index t (0 : Fin 3) = win0_4.index t (0 : Fin 3)
    ∧ win0_0.index t (1 : Fin 3) = win0_4.index t (1 : Fin 3)
    ∧ win0_0.index t (2 : Fin 3) = 0
    ∧ win0_4.index t (2 : Fin 3) = 0
    ∧ win0_1.index t (0 : Fin 3) = win0_4.index t (0 : Fin 3)
    ∧ win0_1.index t (1 : Fin 3) = 0
    ∧ win0_1.index t (2 : Fin 3) = 0
    ∧ win0_2.index t (0 : Fin 1) = 0
    ∧ win0_3.index t (0 : Fin 1) = 0
    ∧ win0_4.index t (0 : Fin 3) ≤ 31
    ∧ win0_4.index t (1 : Fin 3) ≤ 3 :=
  (by decide +kernel : ∀ t : Fin grid0.N, _)

/-- Every block of the result is some point's. -/
theorem idx_onto : ∀ (q0 : Fin 32) (q1 : Fin 4), ∃ t : Fin cfg0.N, win0_4.index t = ![q0.val, q1.val, 0] :=
  (by decide +kernel : ∀ (q0 : Fin 32) (q1 : Fin 4), ∃ t : Fin grid0.N, win0_4.index t = ![q0.val, q1.val, 0])

/-- An entry of the big array's block at point `t` is the array's entry at block index × block size + the coordinate. -/
theorem block0_apply (c : Dev nD) (t : Fin cfg0.N) (x : S1x512x768.Idx) (i : S32x2048x768.Idx)
    (h0 : (i 0).val = win0_0.index t (0 : Fin 3) * 1 + (x 0).val)
    (h1 : (i 1).val = win0_0.index t (1 : Fin 3) * 512 + (x 1).val)
    (h2 : (i 2).val = win0_0.index t (2 : Fin 3) * 768 + (x 2).val) :
    (iblk m c 0 t : Vec Ideal S1x512x768 .f32) x
      = (m ((c : Thread nD τ).loc main_arg0) : S32x2048x768.Idx → EReal) i := by
  unfold iblk
  rw [View.read_apply]
  show V m c main_arg0 (((cfg0.win 0).blk t).view.emb x) = _
  refine (congrFun (V_main_arg0 m c) _).trans (congrArg _ (funext fun a => Fin.ext ?_))
  match a with
  | ⟨0, _⟩ => show win0_0.index t (0 : Fin 3) * 1 + 1 * (x 0).val = (i 0).val; omega
  | ⟨1, _⟩ => show win0_0.index t (1 : Fin 3) * 512 + 1 * (x 1).val = (i 1).val; omega
  | ⟨2, _⟩ => show win0_0.index t (2 : Fin 3) * 768 + 1 * (x 2).val = (i 2).val; omega

/-- The projection re-laid as [32, 1, 768], read at (b, u, k), is the projection at (b, k). -/
theorem relaid_apply (p : (⟨2, ![32, 768]⟩ : Shape).Idx → EReal) (i : S32x1x768.Idx) (b : Fin 32) (k : Fin 768)
    (h0 : (i 0).val = b.val) (h2 : (i 2).val = k.val) :
    shapeCast S32x1x768 p shapeCasts_S32x768_S32x1x768 i = p (ix2 b k) :=
  shapeCast_apply p shapeCasts_S32x768_S32x1x768 i (ix2 b k) (by
    have h1 : (i 1).val < 1 := (i 1).isLt
    rw [Shape.rowMajor_val_two, Shape.rowMajor_val_three]
    show b.val * 768 + k.val = ((i 0).val * 1 + (i 1).val) * 768 + (i 2).val
    rw [h0, h2]; omega)

/-- An entry of the projection's block at point `t` is the projection at (block index, lane). -/
theorem block1_apply (c : Dev nD) (t : Fin cfg0.N) (x : S1x1x768.Idx) (b : Fin 32) (k : Fin 768)
    (h0 : b.val = win0_1.index t (0 : Fin 3) * 1 + (x 0).val)
    (h1 : win0_1.index t (1 : Fin 3) = 0)
    (h2 : k.val = win0_1.index t (2 : Fin 3) * 768 + (x 2).val) :
    (iblk m c 1 t : Vec Ideal S1x1x768 .f32) x = projOf m c (ix2 b k) := by
  unfold iblk
  rw [View.read_apply]
  show V m c main_v27 (((cfg0.win 1).blk t).view.emb x) = _
  refine (congrFun (V_projection m c) _).trans ?_
  refine relaid_apply (projOf m c) _ b k ?_ ?_
  · show win0_1.index t (0 : Fin 3) * 1 + 1 * (x 0).val = b.val; omega
  · show win0_1.index t (2 : Fin 3) * 768 + 1 * (x 2).val = k.val; omega

/-- An entry of γ's block is γ's entry (the block is the whole vector). -/
theorem block2_apply (c : Dev nD) (t : Fin cfg0.N) (x : S768.Idx) (k : Fin 768)
    (h0 : k.val = win0_2.index t (0 : Fin 1) * 768 + (x 0).val) :
    (iblk m c 2 t : Vec Ideal S768 .f32) x = (m ((c : Thread nD τ).loc main_arg14) : S768.Idx → EReal) (ix1 k) := by
  unfold iblk
  rw [View.read_apply]
  show V m c main_arg14 (((cfg0.win 2).blk t).view.emb x) = _
  refine (congrFun (V_main_arg14 m c) _).trans (congrArg _ (funext fun a => Fin.ext ?_))
  match a with
  | ⟨0, _⟩ => show win0_2.index t (0 : Fin 1) * 768 + 1 * (x 0).val = k.val; omega

/-- An entry of β's block is β's entry. -/
theorem block3_apply (c : Dev nD) (t : Fin cfg0.N) (x : S768.Idx) (k : Fin 768)
    (h0 : k.val = win0_3.index t (0 : Fin 1) * 768 + (x 0).val) :
    (iblk m c 3 t : Vec Ideal S768 .f32) x = (m ((c : Thread nD τ).loc main_arg15) : S768.Idx → EReal) (ix1 k) := by
  unfold iblk
  rw [View.read_apply]
  show V m c main_arg15 (((cfg0.win 3).blk t).view.emb x) = _
  refine (congrFun (V_main_arg15 m c) _).trans (congrArg _ (funext fun a => Fin.ext ?_))
  match a with
  | ⟨0, _⟩ => show win0_3.index t (0 : Fin 1) * 768 + 1 * (x 0).val = k.val; omega

set_option maxHeartbeats 1000000 in
/-- WHAT POINT `t` WRITES BACK is block `t` of `result`. -/
theorem flushed_eq (c : Dev nD) (t : Fin cfg0.N) :
    (dats m 0 c).flushed 4 t = ((cfg0.win 4).blk t).view.read (Elt Ideal) (result m c) := by
  rw [Value.flushed4]
  obtain ⟨e00, e01, e02, e42, e10, e11, e12, e20, e30, b0, b1⟩ := idx_facts t
  funext j
  have hj0 : (j 0).val < 1 := (j 0).isLt
  have hj1 : (j 1).val < 512 := (j 1).isLt
  have hj2 : (j 2).val < 768 := (j 2).isLt
  have hb : win0_4.index t (0 : Fin 3) * 1 + (j 0).val < 32 := by omega
  have hs : win0_4.index t (1 : Fin 3) * 512 + (j 1).val < 2048 := by omega
  show out0_4 (iblk m c 0 t) (iblk m c 1 t) (iblk m c 2 t) (iblk m c 3 t) j
    = result m c (((cfg0.win 4).blk t).view.emb j)
  refine (out_entry (iblk m c 0 t) (iblk m c 1 t) (iblk m c 2 t) (iblk m c 3 t) j (⟨(j 1).val, hj1⟩ : Fin 512) (⟨(j 2).val, hj2⟩ : Fin 768)
    rfl rfl).trans ?_
  refine Eq.trans ?_ (LayerNorm.out_at _ _ _ _ (((cfg0.win 4).blk t).view.emb j) (⟨win0_4.index t (0 : Fin 3) * 1 + (j 0).val, hb⟩ : Fin 32) (⟨win0_4.index t (1 : Fin 3) * 512 + (j 1).val, hs⟩ : Fin 2048) (⟨(j 2).val, hj2⟩ : Fin 768)
    (by show win0_4.index t (0 : Fin 3) * 1 + 1 * (j 0).val = win0_4.index t (0 : Fin 3) * 1 + (j 0).val; omega)
    (by show win0_4.index t (1 : Fin 3) * 512 + 1 * (j 1).val = win0_4.index t (1 : Fin 3) * 512 + (j 1).val; omega)
    (by show win0_4.index t (2 : Fin 3) * 768 + 1 * (j 2).val = (j 2).val; omega)).symm
  refine LayerNorm.row_congr _ _ _ _ _ _ (fun k' => ?_) (fun k' => ?_) (fun k' => ?_) _
  · unfold blockRow
    exact congrArg₂ (· + ·)
      (block0_apply m c t (ix3 (0 : Fin 1) (⟨(j 1).val, hj1⟩ : Fin 512) k') (ix3 (⟨win0_4.index t (0 : Fin 3) * 1 + (j 0).val, hb⟩ : Fin 32) (⟨win0_4.index t (1 : Fin 3) * 512 + (j 1).val, hs⟩ : Fin 2048) k')
        (by show win0_4.index t (0 : Fin 3) * 1 + (j 0).val = win0_0.index t (0 : Fin 3) * 1 + 0; omega)
        (by show win0_4.index t (1 : Fin 3) * 512 + (j 1).val = win0_0.index t (1 : Fin 3) * 512 + (j 1).val; omega)
        (by show k'.val = win0_0.index t (2 : Fin 3) * 768 + k'.val; omega))
      (block1_apply m c t (ix3 (0 : Fin 1) (0 : Fin 1) k') (⟨win0_4.index t (0 : Fin 3) * 1 + (j 0).val, hb⟩ : Fin 32) k'
        (by show win0_4.index t (0 : Fin 3) * 1 + (j 0).val = win0_1.index t (0 : Fin 3) * 1 + 0; omega)
        e11
        (by show k'.val = win0_1.index t (2 : Fin 3) * 768 + k'.val; omega))
  · exact block2_apply m c t (ix1 k') k' (by show k'.val = win0_2.index t (0 : Fin 1) * 768 + k'.val; omega)
  · exact block3_apply m c t (ix1 k') k' (by show k'.val = win0_3.index t (0 : Fin 1) * 768 + k'.val; omega)

/-- An index of the result is in point `t`'s block iff each coordinate is in the block's range on its axis. -/
theorem mem_block (t : Fin cfg0.N) (i : S32x2048x768.Idx) :
    i ∈ ((cfg0.win 4).blk t).view.set ↔ ∀ a : Fin 3, win0_4.index t a * S1x512x768.size a ≤ (i a).val
      ∧ (i a).val < win0_4.index t a * S1x512x768.size a + S1x512x768.size a := by
  show i ∈ ((View.whole main_v28).slice (win0_4.rect t)).set ↔ _
  rw [View.set_slice_whole, Rect.mem_set_unit]
  exact Iff.rfl

/-- Every index of the result lies in the block of the point that owns its batch and its 512 rows. -/
theorem covered (i : S32x2048x768.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 768 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 768 ≤ (i 2).val ∧ (i 2).val < win0_4.index t (2 : Fin 3) * 768 + 768; omega

/-- THE RESULT ARRAY after the run is `result`. -/
theorem final (c : Dev nD) : (dats m 0 c).arrAt 4 cfg0.N = result m c :=
  (dats m 0 c).arrAt_eq_of_cover 4 (result m c) (fun t _ => flushed_eq m c t) (covered)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelBridge

end
-- ==== Proof.ReferenceValue.lean ====
/-
  The reference computes `LayerNorm.out`.

  Read one operation at a time, the reference's result at an index (b, s, k) is built from the row (b, s) of
  `x = a + p`, where `p` is the projection its earlier operations compute (kept closed here, as the stage
  that writes it): the row's sum divided by 768 is subtracted, the squared deviations are summed and divided by
  768, ε is added, the reciprocal square root is taken, and the deviation at k is multiplied by it, by γ k, and
  shifted by β k.  The host's sums start from the zero word, which is the real 0, so each is the plain sum over
  the row.  What remains is that the index each broadcast reads is the evident one.
-/
import proofs.«134053_j68350109549162_1_alg».proof.Proof.Gen.ReferenceIdeal.Read
import proofs.«134053_j68350109549162_1_alg».proof.Proof.LayerNormSpec
import Idealize.ShloMosaic.PureOps.Ideal.Laws

noncomputable section

open Idealize.ShloMosaic Idealize.ShloMosaic.ValueIdx

namespace Cert.RefBridge

open Cert.ReferenceIdeal Cert.ReferenceIdeal.Read

variable (b : Fin 32) (s : Fin 2048) (k k' : Fin 768)

/-- The projection is broadcast along the sequence axis: entry (b, s, k) reads `p (b, k)`. -/
theorem idx_proj : idx_main_v27 (idx_main_v28 (ix3 b s k)) = ix2 b k :=
  funext fun a => Fin.ext (by match a with | ⟨0, _⟩ => rfl | ⟨1, _⟩ => rfl)

/-- The row sum behind the mean at (b, s, k) runs over row (b, s). -/
theorem idx_mean_row : idx_main_v30 (idx_main_v31 (idx_main_v41 (ix3 b s k))) k' = ix3 b s k' :=
  funext fun a => Fin.ext (by match a with | ⟨0, _⟩ => rfl | ⟨1, _⟩ => rfl | ⟨2, _⟩ => rfl)

/-- The same mean, as the squared deviations read it. -/
theorem idx_mean_row' : idx_main_v30 (idx_main_v31 (idx_main_v34 (ix3 b s k))) k' = ix3 b s k' :=
  funext fun a => Fin.ext (by match a with | ⟨0, _⟩ => rfl | ⟨1, _⟩ => rfl | ⟨2, _⟩ => rfl)

/-- The sum behind the variance at (b, s, k) runs over row (b, s). -/
theorem idx_var_row : idx_main_v37 (idx_main_v38 (idx_main_v46 (ix3 b s k))) k' = ix3 b s k' :=
  funext fun a => Fin.ext (by match a with | ⟨0, _⟩ => rfl | ⟨1, _⟩ => rfl | ⟨2, _⟩ => rfl)

/-- The scale γ is broadcast over batch and sequence. -/
theorem idx_gamma : idx_main_v48 (idx_main_v49 (ix3 b s k)) = ix1 k :=
  funext fun a => Fin.ext (by match a with | ⟨0, _⟩ => rfl)

/-- The shift β is broadcast over batch and sequence. -/
theorem idx_beta : idx_main_v51 (idx_main_v52 (ix3 b s k)) = ix1 k :=
  funext fun a => Fin.ext (by match a with | ⟨0, _⟩ => rfl)

/-- The reference's last stage is `LayerNorm.out` of the first argument, the projection stage, γ and β. -/
theorem ref_is_out (x0 : (⟨S32x2048x768, .f32⟩ : BufTy).Contents (Elt Ideal)) (x1 : (⟨S32x512, .f32⟩ : BufTy).Contents (Elt Ideal))
    (x6 : (⟨S256x512, .f32⟩ : BufTy).Contents (Elt Ideal)) (x7 : (⟨S256, .f32⟩ : BufTy).Contents (Elt Ideal))
    (x8 : (⟨S768x256, .f32⟩ : BufTy).Contents (Elt Ideal)) (x9 : (⟨S768, .f32⟩ : BufTy).Contents (Elt Ideal))
    (x10 : (⟨S256x256, .f32⟩ : BufTy).Contents (Elt Ideal)) (x11 : (⟨S256, .f32⟩ : BufTy).Contents (Elt Ideal))
    (x12 : (⟨S768x256, .f32⟩ : BufTy).Contents (Elt Ideal)) (x13 x14 x15 : (⟨S768, .f32⟩ : BufTy).Contents (Elt Ideal)) :
    val_main_v53 (F := Ideal) x0 x1 x6 x7 x8 x9 x10 x11 x12 x13 x14 x15
      = Cert.LayerNorm.out x0 (val_main_v26 (F := Ideal) x1 x6 x7 x8 x9 x10 x11 x12 x13) x14 x15 := by
  funext i
  obtain ⟨b, s, k, rfl⟩ : ∃ (b : Fin 32) (s : Fin 2048) (k : Fin 768), i = ix3 b s k := ⟨i 0, i 1, i 2, eq_ix3 i⟩
  simp only [val_main_v53_apply, val_main_v52_apply, val_main_v51_apply, val_main_v50_apply, val_main_v49_apply, val_main_v48_apply, val_main_v47_apply, val_main_v46_apply, val_main_v45_apply, val_main_v44_apply, val_main_v43_apply, val_main_cst_3_apply, val_main_v42_apply, val_main_v41_apply, val_main_v40_apply, val_main_v39_apply, val_main_cst_2_apply, val_main_v38_apply, val_main_v37_apply, val_main_cst_1_apply, val_main_v36_apply, val_main_v35_apply, val_main_v34_apply, val_main_v33_apply, val_main_v32_apply, val_main_cst_0_apply, val_main_v31_apply, val_main_v30_apply, val_main_cst_apply, val_main_v29_apply, val_main_v28_apply, val_main_v27_apply]
  simp only [idx_proj, idx_mean_row, idx_mean_row', idx_var_row, idx_gamma, idx_beta,
    Ideal.ofBits_def, Ideal.addf_def, Ideal.subf_def, Ideal.mulf_def, Ideal.hostDivf_def, Ideal.hostUnary_rsqrt_def,
    Ideal.ofBits_zero_f32, zero_add]
  rfl

end Cert.RefBridge

end
-- ==== Proof.lean ====
/-
  The certificate of a fused "add the projection, then layer-normalise" kernel against its plain reference.

  Both programs first compute the same [32, 768] projection `p` of the vision features (four affine maps), with the
  same operations on the same arguments.  The kernel then runs one region over a 32 × 4 grid: point (b, q) loads rows
  512·q … 512·q + 511 of batch b of the big array `a`, row b of `p`, and γ and β, and stores the rows of
  `x = a + p` normalised: with mean `(∑ x) / 768` and variance `(∑ (x - mean)²) / 768`, entry k is
  `(x k - mean) · rsqrt (variance + ε) · γ k + β k`.  The reference does the same on the whole array with a
  broadcast, two sums over the last axis and the same two constants.  On the extended reals every operation of the one
  is the same operation of the other — the lane sum started from the zero word is the plain sum, as is the host's sum
  started from the zero constant; the two divisions and the two reciprocal square roots are each one function — so no
  algebraic law is needed and the precondition is never opened: both results are `LayerNorm.out a p γ β`
  (Proof/LayerNormSpec.lean), the kernel's by Proof/BlockValue.lean (one block), Proof/HostProjection.lean (the
  projection its second window stages) and Proof/KernelValue.lean (the blocks tile the array), the reference's by
  Proof/ReferenceValue.lean.  The frames are the generated ones; the idealisation rewrote nothing, so `preserves` is
  trivial.
-/
import proofs.«134053_j68350109549162_1_alg».proof.Defs
import proofs.«134053_j68350109549162_1_alg».proof.Proof.Gen.Kernel
import proofs.«134053_j68350109549162_1_alg».proof.Proof.Gen.Kernel.Skeleton
import proofs.«134053_j68350109549162_1_alg».proof.Proof.Gen.Kernel.Launch
import proofs.«134053_j68350109549162_1_alg».proof.Proof.Gen.Kernel.Points
import proofs.«134053_j68350109549162_1_alg».proof.Proof.Gen.Kernel.Frame
import proofs.«134053_j68350109549162_1_alg».proof.Proof.Gen.KernelIdeal
import proofs.«134053_j68350109549162_1_alg».proof.Proof.Gen.KernelIdeal.Skeleton
import proofs.«134053_j68350109549162_1_alg».proof.Proof.Gen.KernelIdeal.Launch
import proofs.«134053_j68350109549162_1_alg».proof.Proof.Gen.KernelIdeal.Points
import proofs.«134053_j68350109549162_1_alg».proof.Proof.Gen.KernelIdeal.Frame
import proofs.«134053_j68350109549162_1_alg».proof.Proof.Gen.ReferenceIdeal
import proofs.«134053_j68350109549162_1_alg».proof.Proof.Gen.Pre_finite_inputs
import proofs.«134053_j68350109549162_1_alg».proof.Proof.Gen.KernelIdeal.Value
import proofs.«134053_j68350109549162_1_alg».proof.Proof.Gen.ReferenceIdeal.Run
import proofs.«134053_j68350109549162_1_alg».proof.Proof.Gen.ReferenceIdeal.Read
import proofs.«134053_j68350109549162_1_alg».proof.Proof.KernelValue
import proofs.«134053_j68350109549162_1_alg».proof.Proof.ReferenceValue
import Idealize.ShloMosaic.Adequacy
import Idealize.ShloMosaic.Init

noncomputable section

namespace Cert.Proof

open Idealize.ShloMosaic Idealize.SL.Sem

/-- The kernel as printed runs and leaves its arguments: the generated frame. -/
theorem frame_kernel : Cert.frame_Kernel := fun m ρ _ => Cert.Kernel.Gen.frame m ρ

/-- The idealised kernel runs and leaves its arguments: the generated frame. -/
theorem frame_kernelIdeal : Cert.frame_KernelIdeal := fun m ρ _ => Cert.KernelIdeal.Gen.frame m ρ

/-- The reference runs and leaves its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with `LayerNorm.out` of the big array, the
    projection, γ and β: the kernel by its run read block by block, the reference by its run read operation by
    operation; the agreement carries the one to the other. -/
theorem algebraic : Cert.algebraic_KernelIdeal_ReferenceIdeal := by
  intro m ρ m' ρ' _ hagree
  refine ⟨fun c => Cert.KernelBridge.result m c, Cert.KernelBridge.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, _, _, _, _, h6, h7, h8, h9, h10, h11, h12, h13, h14, h15⟩ := hagree c
  rw [Cert.ReferenceIdeal.Read.val_main_v53_eq, Cert.RefBridge.ref_is_out, h0, h1, h6, h7, h8, h9, h10, h11, h12, h13, h14,
    h15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
